-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x8 : Shape := ⟨2, ![16777216, 8]⟩
abbrev S_ : Shape := ⟨0, ![]⟩

class Facts : Prop where
  bcast_S_S16777216x8 : S_.BroadcastsInDim S16777216x8 (![] : Fin 0 → Fin S16777216x8.rank)
  reducesTo_S16777216x8_S_d0_1 : S16777216x8.ReducesTo [0, 1] S_
  h_S_ : 0 < S_.numel

variable [Facts]

def fn {F : FTy → Type} [FloatOps F] (main_arg0 : FVec F S16777216x8 .f32) : IVec S_ 1 :=
  let main_v0 : FVec F S16777216x8 .f32 := Host.absf main_arg0
  let main_cst : FVec F S_ .f32 := constant S_ .f32 0x7F800000#32
  let main_v1 : FVec F S16777216x8 .f32 := broadcastInDim S16777216x8 ![] bcast_S_S16777216x8 main_cst
  let main_v2 : IVec S16777216x8 1 := cmpf .olt main_v0 main_v1
  let main_c : IVec S_ 1 := constantI S_ 1 1#1
  let main_v3 : IVec S_ 1 := (fun x v => Host.reduce IntOp.andi x v reducesTo_S16777216x8_S_d0_1 h_S_) main_v2 main_c
  main_v3
-- ==== Kernel.lean ====
abbrev S16777216x8 : Shape := ⟨2, ![16777216, 8]⟩
abbrev S16384x8 : Shape := ⟨2, ![16384, 8]⟩
abbrev S16384x1 : Shape := ⟨2, ![16384, 1]⟩
abbrev S16384 : Shape := ⟨1, ![16384]⟩

abbrev nBuf : Space → Nat
  | .hbm => 2
  | .vmem => 4
  | .smem => 0
  | _ => 0

abbrev bufTy : (tb : Table) → Fin (tcTables nBuf tb) → BufTy
  | .hbm, ⟨0, _⟩ => ⟨S16777216x8, .f32⟩
  | .hbm, ⟨1, _⟩ => ⟨S16777216x8, .f32⟩
  | .local _ .vmem, ⟨0, _⟩ => ⟨S16384x8, .f32⟩
  | .local _ .vmem, ⟨1, _⟩ => ⟨S16384x8, .f32⟩
  | .local _ .vmem, ⟨2, _⟩ => ⟨S16384x8, .f32⟩
  | .local _ .vmem, ⟨3, _⟩ => ⟨S16384x8, .f32⟩
  | _, _ => ⟨S16777216x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x8_S16384x8_0_0 : ∀ a, (![0, 0] : Fin 2 → Nat) a + S16384x8.size a ≤ S16384x8.size a
  h_S16384x8 : 0 < S16384x8.numel
  slices_S16384x8_o0_0_S16384x1 : S16384x8.Slices ![0, 0] S16384x1
  slices_S16384x8_o0_1_S16384x1 : S16384x8.Slices ![0, 1] S16384x1
  slices_S16384x8_o0_2_S16384x1 : S16384x8.Slices ![0, 2] S16384x1
  slices_S16384x8_o0_3_S16384x1 : S16384x8.Slices ![0, 3] S16384x1
  slices_S16384x8_o0_4_S16384x1 : S16384x8.Slices ![0, 4] S16384x1
  slices_S16384x8_o0_5_S16384x1 : S16384x8.Slices ![0, 5] S16384x1
  slices_S16384x8_o0_6_S16384x1 : S16384x8.Slices ![0, 6] S16384x1
  slices_S16384x8_o0_7_S16384x1 : S16384x8.Slices ![0, 7] S16384x1
  broadcasts_S16384x1_S16384x8 : S16384x1.Broadcasts S16384x8
  reduces_S16384x8_S16384 : S16384x8.Reduces [1] S16384
  shapeCasts_S16384_S16384x1 : S16384.ShapeCasts S16384x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S16777216x8.size a
  hwx0_0 : ∀ i : grid0.Coords, EltTy.bits .f32 = 32 ∨ (Rect.block (s := S16777216x8) S16384x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x8.size a ≤ S16777216x8.size a
  hwx0_1 : ∀ i : grid0.Coords, EltTy.bits .f32 = 32 ∨ (Rect.block (s := S16777216x8) S16384x8.size (cc0_transform_1 i) (hinb0_1 i)).WholeWords (EltTy.packing .f32)

variable [Facts₀]

abbrev win0_0 : Pipeline.Window sig grid0 :=
  Pipeline.Window.ofSpec (Memref.whole main_arg0) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x8 : Shape := ⟨2, ![16777216, 8]⟩
abbrev S16777216x1 : Shape := ⟨2, ![16777216, 1]⟩
abbrev S16777216 : Shape := ⟨1, ![16777216]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S16777216x8, .f32⟩
  | .hbm, ⟨1, _⟩ => ⟨S16777216x1, .f32⟩
  | .hbm, ⟨2, _⟩ => ⟨S16777216, .f32⟩
  | .hbm, ⟨3, _⟩ => ⟨S16777216x1, .f32⟩
  | .hbm, ⟨4, _⟩ => ⟨S16777216, .f32⟩
  | .hbm, ⟨5, _⟩ => ⟨S16777216x1, .f32⟩
  | .hbm, ⟨6, _⟩ => ⟨S16777216, .f32⟩
  | .hbm, ⟨7, _⟩ => ⟨S16777216x1, .f32⟩
  | .hbm, ⟨8, _⟩ => ⟨S16777216, .f32⟩
  | .hbm, ⟨9, _⟩ => ⟨S16777216x1, .f32⟩
  | .hbm, ⟨10, _⟩ => ⟨S16777216, .f32⟩
  | .hbm, ⟨11, _⟩ => ⟨S16777216x1, .f32⟩
  | .hbm, ⟨12, _⟩ => ⟨S16777216, .f32⟩
  | .hbm, ⟨13, _⟩ => ⟨S16777216x1, .f32⟩
  | .hbm, ⟨14, _⟩ => ⟨S16777216, .f32⟩
  | .hbm, ⟨15, _⟩ => ⟨S16777216x1, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S_, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S16777216, .f32⟩
  | .hbm, ⟨48, _⟩ => ⟨S16777216, .f32⟩
  | .hbm, ⟨49, _⟩ => ⟨S16777216, .f32⟩
  | .hbm, ⟨50, _⟩ => ⟨S16777216, .f32⟩
  | .hbm, ⟨51, _⟩ => ⟨S16777216, .f32⟩
  | .hbm, ⟨52, _⟩ => ⟨S16777216, .f32⟩
  | .hbm, ⟨53, _⟩ => ⟨S_, .f32⟩
  | .hbm, ⟨54, _⟩ => ⟨S16777216, .f32⟩
  | .hbm, ⟨55, _⟩ => ⟨S16777216, .f32⟩
  | .hbm, ⟨56, _⟩ => ⟨S16777216x1, .f32⟩
  | .hbm, ⟨57, _⟩ => ⟨S16777216x8, .f32⟩
  | .hbm, ⟨58, _⟩ => ⟨S16777216x8, .f32⟩
  | .hbm, ⟨59, _⟩ => ⟨S_, .f32⟩
  | .hbm, ⟨60, _⟩ => ⟨S16777216, .f32⟩
  | .hbm, ⟨61, _⟩ => ⟨S_, .f32⟩
  | .hbm, ⟨62, _⟩ => ⟨S16777216, .f32⟩
  | .hbm, ⟨63, _⟩ => ⟨S_, .f32⟩
  | .hbm, ⟨64, _⟩ => ⟨S16777216, .f32⟩
  | .hbm, ⟨65, _⟩ => ⟨S16777216, .i1⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S_, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .i1⟩
  | .hbm, ⟨76, _⟩ => ⟨S_, .f32⟩
  | .hbm, ⟨77, _⟩ => ⟨S16777216, .f32⟩
  | .hbm, ⟨78, _⟩ => ⟨S16777216, .f32⟩
  | .hbm, ⟨79, _⟩ => ⟨S_, .f32⟩
  | .hbm, ⟨80, _⟩ => ⟨S_, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S16777216x1, .f32⟩
  | .hbm, ⟨85, _⟩ => ⟨S16777216x8, .f32⟩
  | .hbm, ⟨86, _⟩ => ⟨S16777216x8, .f32⟩
  | _, _ => ⟨S16777216x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_cst : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst_0 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_3 : Ref sig .tc := ⟨.hbm, 59, rfl⟩
abbrev main_v54 : Ref sig .tc := ⟨.hbm, 60, rfl⟩
abbrev main_cst_4 : Ref sig .tc := ⟨.hbm, 61, rfl⟩
abbrev main_v55 : Ref sig .tc := ⟨.hbm, 62, rfl⟩
abbrev main_cst_5 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_v59 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_cst_9 : Ref sig .tc := ⟨.hbm, 76, rfl⟩
abbrev main_v63 : Ref sig .tc := ⟨.hbm, 77, rfl⟩
abbrev main_v64 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]

class Facts₀ : Prop where
  slices_S16777216x8_S16777216x1_0_0 : S16777216x8.Slices ![0, 0] S16777216x1
  shapeCasts_S16777216x1_S16777216 : S16777216x1.ShapeCasts S16777216
  slices_S16777216x8_S16777216x1_0_1 : S16777216x8.Slices ![0, 1] S16777216x1
  slices_S16777216x8_S16777216x1_0_2 : S16777216x8.Slices ![0, 2] S16777216x1
  slices_S16777216x8_S16777216x1_0_3 : S16777216x8.Slices ![0, 3] S16777216x1
  slices_S16777216x8_S16777216x1_0_4 : S16777216x8.Slices ![0, 4] S16777216x1
  slices_S16777216x8_S16777216x1_0_5 : S16777216x8.Slices ![0, 5] S16777216x1
  slices_S16777216x8_S16777216x1_0_6 : S16777216x8.Slices ![0, 6] S16777216x1
  slices_S16777216x8_S16777216x1_0_7 : S16777216x8.Slices ![0, 7] S16777216x1
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x8_0_1 : S16777216x1.BroadcastsInDim S16777216x8 (![0, 1] : Fin 2 → Fin S16777216x8.rank)
  reducesTo_S16777216x8_S16777216_d1 : S16777216x8.ReducesTo [1] S16777216
  h_S_ : 0 < S_.numel

variable [Facts₀]

class Facts : Prop extends Facts₀ where

variable [Facts]
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.RowNormalize.lean ====
/-
  The specification: what both programs compute on one row of eight values.

  The input is an array of rows `c = (c₀, …, c₇)`, the values of a function at the eight corners of a cell, and every
  output entry depends on its own row only. From a row the computation forms the three central differences across the cell
  `gx = ¼ (c₀ + c₁ + c₂ + c₃ − c₄ − c₅ − c₆ − c₇)`, `gy = ¼ (c₀ + c₁ − c₂ − c₃ + c₄ + c₅ − c₆ − c₇)`,
  `gz = ¼ (c₀ − c₁ + c₂ − c₃ + c₄ − c₅ + c₆ − c₇)`, each sum taken from left to right, the gradient's norm made positive
  `d = √(gx² + gy² + gz²) + ε`, and the scaled row `sⱼ = cⱼ / d`. With `lo = min_j sⱼ` and `hi = max_j sⱼ` the row is then
  moved by `shift = (lo − 1 if lo > 1, else 0) + (hi + 1 if hi < −1, else 0)`: down until its least entry is `1` when every
  entry is above `1`, up until its greatest entry is `−1` when every entry is below `−1`. The result is `sⱼ − shift`.

  Everything is stated over the extended reals, the values both idealized programs compute with: `+`, `−`, `·` are
  theirs, the quotient and the square root are the ideal instance's (`Ideal.div`, `Ideal.sqrt`), a comparison is a bit
  (`Ideal.cmp`) and the choice on it `Scalar.select`. The constants are the float words both programs carry, read as
  the extended reals they denote (`¼`, `ε`, `1`, `−1`, `0`, and `+∞`, `−∞` from which the minimum and the maximum
  start); the same word stands on both sides, so none of them is ever evaluated. The two programs perform these
  operations in this very order, so no law of arithmetic is used beyond the fact that a minimum or a maximum of eight
  numbers does not depend on the order in which they are taken (which is in `Cert.Columns`), and nothing here needs
  the entries to be finite.
-/
import Idealize.ShloMosaic.PureOps.Ideal
import Idealize.ShloMosaic.Lib.ValueIdx

noncomputable section

namespace Cert.RowNormalize

open Idealize.ShloMosaic Idealize.ShloMosaic.ValueIdx

/-- The float words of the computation, as the extended reals they denote. -/
def quarter : EReal := Ideal.ofBits .f32 0x3E800000#32
def eps : EReal := Ideal.ofBits .f32 0x322BCC77#32
def one : EReal := Ideal.ofBits .f32 0x3F800000#32
def negOne : EReal := Ideal.ofBits .f32 0xBF800000#32
def zero : EReal := Ideal.ofBits .f32 0x00000000#32
def posInf : EReal := Ideal.ofBits .f32 0x7F800000#32
def negInf : EReal := Ideal.ofBits .f32 0xFF800000#32

/-- The central difference across the cell along the first axis, the corners summed from left to right. -/
def gradX (c : Fin 8 → EReal) : EReal := quarter * (c 0 + c 1 + c 2 + c 3 - c 4 - c 5 - c 6 - c 7)
/-- … along the second axis … -/
def gradY (c : Fin 8 → EReal) : EReal := quarter * (c 0 + c 1 - c 2 - c 3 + c 4 + c 5 - c 6 - c 7)
/-- … and along the third. -/
def gradZ (c : Fin 8 → EReal) : EReal := quarter * (c 0 - c 1 + c 2 - c 3 + c 4 - c 5 + c 6 - c 7)

/-- The gradient's Euclidean norm plus `ε`: the row's divisor. -/
def denom (c : Fin 8 → EReal) : EReal :=
  Ideal.sqrt (gradX c * gradX c + gradY c * gradY c + gradZ c * gradZ c) + eps

/-- The row divided by its divisor. -/
def scaled (c : Fin 8 → EReal) (j : Fin 8) : EReal := Ideal.div (c j) (denom c)

/-- The least and the greatest entry of the scaled row, folded from `+∞` and from `−∞`. -/
def rowMin (c : Fin 8 → EReal) : EReal := (Finset.univ : Finset (Fin 8)).fold min posInf (scaled c)
def rowMax (c : Fin 8 → EReal) : EReal := (Finset.univ : Finset (Fin 8)).fold max negInf (scaled c)

/-- The two guarded shifts from a row's least entry `lo` and greatest entry `hi`, added: `lo − 1` when `lo > 1`,
    `hi + 1` when `hi < −1`, and `0` for a guard that does not hold. -/
def shiftOf (lo hi : EReal) : EReal :=
  Scalar.select (Ideal.cmp .ogt lo one) (lo - one) zero + Scalar.select (Ideal.cmp .olt hi negOne) (hi + one) zero

/-- The row's shift. -/
def shift (c : Fin 8 → EReal) : EReal := shiftOf (rowMin c) (rowMax c)

/-- Entry `j` of the result for the row `c`. -/
def out (c : Fin 8 → EReal) (j : Fin 8) : EReal := scaled c j - shift c

/-- Row `r` of an array of `n` rows of eight. -/
def row {n : ℕ} (x : (⟨2, ![n, 8]⟩ : Shape).Idx → EReal) (r : Fin n) : Fin 8 → EReal := fun k => x (ix2 r k)

/-- THE RESULT ARRAY as one function of the argument array: entry `(r, j)` is entry `j` of the result for row `r`. -/
def result {n : ℕ} (x : (⟨2, ![n, 8]⟩ : Shape).Idx → EReal) : (⟨2, ![n, 8]⟩ : Shape).Idx → EReal :=
  fun i => out (row x (i 0)) (i 1)

theorem result_apply {n : ℕ} (x : (⟨2, ![n, 8]⟩ : Shape).Idx → EReal) (r : Fin n) (j : Fin 8) :
    result x (ix2 r j) = out (row x r) j := rfl

end Cert.RowNormalize

end
-- ==== Proof.KernelRows.lean ====
/-
  The kernel's body computes the specification on each row of its block.

  The body works on one block of `16384` rows: it loads the block `v`, computes and stores. Its arithmetic is three pure
  terms of `v`, the quotient (the scaled block), its row minima and its row maxima, each kept as a column `[16384, 1]`,
  and the stored value as a term of those three. Read at an index `(r, j)`:
  • column `k` cut out of the block holds at `(r, 0)` the corner value `c_k` of the block's row `r` (`col0` … `col7`);
    the sums, products, the square root and the added `ε` are elementwise on columns, the divisor's column is broadcast
    over the eight columns and divided into the block: entry `(r, j)` is the scaled row's entry `j` (`scaled_eq`);
  • the two reductions along the second axis, cast from a vector back to a column, hold at `(r, 0)` the least and the
    greatest entry of the scaled row (`rowMin_eq`, `rowMax_eq`);
  • the two guarded shifts are elementwise on columns, and their sum is broadcast over the eight columns and subtracted
    (`stored_eq`).
  So the stored block holds at `(r, j)` entry `j` of the result for the block's row `r` (`block_eq`).
-/
import proofs.«124607_j50946902065846_2_alg».proof.Proof.Gen.KernelIdeal.Skeleton
import proofs.«124607_j50946902065846_2_alg».proof.Proof.LibColumns
import proofs.«124607_j50946902065846_2_alg».proof.Proof.RowNormalize

noncomputable section

namespace Cert.KernelIdeal.Rows

open Cert.KernelIdeal Cert.KernelIdeal.Gen
open Idealize.ShloMosaic Idealize.ShloMosaic.ValueIdx Cert.RowNormalize Cert.Columns

variable (v : Vec Ideal S16384x8 .f32)

/-! ## The eight corner columns of a block -/

theorem col0 (r : Fin 16384) (h : S16384x8.Slices ![0, 0] S16384x1) :
    extractStridedSlice S16384x1 ![0, 0] v h (ix2 r (0 : Fin 1)) = row v r 0 :=
  slice_col_apply (b := 8) 0 (by decide) v h r 0
theorem col1 (r : Fin 16384) (h : S16384x8.Slices ![0, 1] S16384x1) :
    extractStridedSlice S16384x1 ![0, 1] v h (ix2 r (0 : Fin 1)) = row v r 1 :=
  slice_col_apply (b := 8) 1 (by decide) v h r 0
theorem col2 (r : Fin 16384) (h : S16384x8.Slices ![0, 2] S16384x1) :
    extractStridedSlice S16384x1 ![0, 2] v h (ix2 r (0 : Fin 1)) = row v r 2 :=
  slice_col_apply (b := 8) 2 (by decide) v h r 0
theorem col3 (r : Fin 16384) (h : S16384x8.Slices ![0, 3] S16384x1) :
    extractStridedSlice S16384x1 ![0, 3] v h (ix2 r (0 : Fin 1)) = row v r 3 :=
  slice_col_apply (b := 8) 3 (by decide) v h r 0
theorem col4 (r : Fin 16384) (h : S16384x8.Slices ![0, 4] S16384x1) :
    extractStridedSlice S16384x1 ![0, 4] v h (ix2 r (0 : Fin 1)) = row v r 4 :=
  slice_col_apply (b := 8) 4 (by decide) v h r 0
theorem col5 (r : Fin 16384) (h : S16384x8.Slices ![0, 5] S16384x1) :
    extractStridedSlice S16384x1 ![0, 5] v h (ix2 r (0 : Fin 1)) = row v r 5 :=
  slice_col_apply (b := 8) 5 (by decide) v h r 0
theorem col6 (r : Fin 16384) (h : S16384x8.Slices ![0, 6] S16384x1) :
    extractStridedSlice S16384x1 ![0, 6] v h (ix2 r (0 : Fin 1)) = row v r 6 :=
  slice_col_apply (b := 8) 6 (by decide) v h r 0
theorem col7 (r : Fin 16384) (h : S16384x8.Slices ![0, 7] S16384x1) :
    extractStridedSlice S16384x1 ![0, 7] v h (ix2 r (0 : Fin 1)) = row v r 7 :=
  slice_col_apply (b := 8) 7 (by decide) v h r 0

/-! ## The scaled block -/

/-- Entry `(r, j)` of the quotient is entry `j` of the block's row `r` divided by the row's divisor. -/
theorem scaled_eq (r : Fin 16384) (j : Fin 8) : k0_pay2 (F := Ideal) v (ix2 r j) = scaled (row v r) j := by
  unfold k0_pay2
  simp only [divf, addf, subf, mulf, sqrt, broadcast, broadcastTo_a1_ab_apply,
    col0 v r, col1 v r, col2 v r, col3 v r, col4 v r, col5 v r, col6 v r, col7 v r]
  rfl

/-! ## Its rows' least and greatest entries -/

/-- The minimum reduction along the second axis, cast to a column, holds at `(r, 0)` the scaled row's least entry. -/
theorem rowMin_eq (r : Fin 16384) : k0_pay3 (F := Ideal) v (ix2 r (0 : Fin 1)) = rowMin (row v r) := by
  unfold k0_pay3
  refine (shapeCast_a_a1_apply _ _ r 0).trans ?_
  refine (multiReduction_minimumf_row _ _ _ _ _ r).trans ?_
  exact congrArg (fun f => Finset.fold min (Ideal.ofBits .f32 0x7F800000#32) f (Finset.univ : Finset (Fin 8)))
    (funext fun k => scaled_eq v r k)

/-- The maximum reduction, cast to a column, holds its greatest entry. -/
theorem rowMax_eq (r : Fin 16384) : k0_pay4 (F := Ideal) v (ix2 r (0 : Fin 1)) = rowMax (row v r) := by
  unfold k0_pay4
  refine (shapeCast_a_a1_apply _ _ r 0).trans ?_
  refine (multiReduction_maximumf_row _ _ _ _ _ r).trans ?_
  exact congrArg (fun f => Finset.fold max (Ideal.ofBits .f32 0xFF800000#32) f (Finset.univ : Finset (Fin 8)))
    (funext fun k => scaled_eq v r k)

/-! ## The stored value -/

/-- The stored value from a scaled block `s` and the columns `lo`, `hi` of its rows' least and greatest entries: at
    `(r, j)` it is `s (r, j)` less the two guarded shifts of `lo (r, 0)` and `hi (r, 0)`, added. -/
theorem stored_eq (s : FVec Ideal S16384x8 .f32) (lo hi : FVec Ideal S16384x1 .f32) (r : Fin 16384) (j : Fin 8) :
    k0_pay1 (F := Ideal) s lo hi (Scalar.ofBits .f32 0x3F800000#32) (ix2 r j)
      = s (ix2 r j) - shiftOf (lo (ix2 r (0 : Fin 1))) (hi (ix2 r (0 : Fin 1))) := by
  unfold k0_pay1
  simp only [subf, addf, select, cmpf, broadcast, broadcastTo_a1_ab_apply]
  rfl

/-- THE BLOCK THE BODY STORES, as a term of the block it loaded, holds at `(r, j)` entry `j` of the result for the
    loaded block's row `r`. -/
theorem block_eq (r : Fin 16384) (j : Fin 8) :
    k0_pay1 (F := Ideal) (k0_pay2 v) (k0_pay3 v) (k0_pay4 v) (Scalar.ofBits .f32 0x3F800000#32) (ix2 r j) = out (row v r) j := by
  rw [stored_eq, scaled_eq, rowMin_eq, rowMax_eq]; rfl

end Cert.KernelIdeal.Rows

end
-- ==== Proof.KernelArray.lean ====
/-
  From the blocks to the whole array: the kernel's result array is the specification's function of its argument.

  The kernel runs its body at `1024` grid points. Point `t` is handed block `t` of the argument, rows
  `16384 t … 16384 t + 16383` and all eight columns, and what it stores is written back as block `t` of the result, the
  same rows. Row `r` of the loaded block is row `16384 t + r` of the argument (`loaded_apply`), the body computes the
  result row by row (`Cert.KernelIdeal.Rows.block_eq`), and the specification's array is defined row by row too, so what
  point `t` writes back is exactly block `t` of the specification's array (`stored_block`, `written_back`). Every row
  `R` lies in the block of the point `R / 16384` (`covered`), so after the run the whole result array is the
  specification's function of the argument (`final_array`), and the argument is unchanged (`run`).
-/
import proofs.«124607_j50946902065846_2_alg».proof.Proof.Gen.KernelIdeal.Frame
import proofs.«124607_j50946902065846_2_alg».proof.Proof.Gen.KernelIdeal.Value
import proofs.«124607_j50946902065846_2_alg».proof.Proof.KernelRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value
open Idealize.ShloMosaic.ValueIdx Cert.RowNormalize

variable (m : (ℓ : Loc nD τ sig) → Buf (Elt Ideal) ℓ) (ρ : Dev nD → PrngReg)

/-- The body's load and store go through the whole staging buffer: their offsets are zero. -/
theorem zero_offsets : (![0, 0] : Fin 2 → Nat) = fun _ => 0 := funext fun a => by fin_cases a <;> rfl

/-- The two index maps, decided over the grid's 1024 points: at point `t` both windows are at block `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The block loaded at point `t` holds at `y` the argument's entry at row `16384 t + y₀`, column `y₁`. -/
theorem loaded_apply (c : Dev nD) (t : Fin cfg0.N) (y : S16384x8.Idx) (i : S16777216x8.Idx)
    (h0 : (i 0).val = t.val * 16384 + (y 0).val) (h1 : (i 1).val = (y 1).val) :
    (iblk m c 0 t : Vec Ideal S16384x8 .f32) y = (m ((c : Thread nD τ).loc main_arg0) : S16777216x8.Idx → EReal) i := by
  obtain ⟨e0, e1, -, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 2) * 16384 + 1 * (y 0).val = (i 0).val; rw [e0, h0]; omega
  | ⟨1, _⟩ => show win0_0.index t (1 : Fin 2) * 8 + 1 * (y 1).val = (i 1).val; rw [e1, h1]; omega

/-- If a block `X` holds rows `16384 q …` of an array `A`, the block the body stores from `X` holds at `y` the
    specification's array of `A` at row `16384 q + y₀`, column `y₁`: both are computed from that one row. -/
theorem stored_block (X : Vec Ideal S16384x8 .f32) (A : S16777216x8.Idx → EReal) (q : ℕ)
    (hX : ∀ (y : S16384x8.Idx) (i : S16777216x8.Idx), (i 0).val = q * 16384 + (y 0).val → (i 1).val = (y 1).val → X y = A i)
    (y : S16384x8.Idx) (i : S16777216x8.Idx) (h0 : (i 0).val = q * 16384 + (y 0).val) (h1 : (i 1).val = (y 1).val) :
    k0_pay1 (F := Ideal) (k0_pay2 X) (k0_pay3 X) (k0_pay4 X) (Scalar.ofBits .f32 0x3F800000#32) y = result A i := by
  obtain ⟨r, j, rfl⟩ : ∃ (r : Fin 16384) (j : Fin 8), y = ix2 r j := ⟨y 0, y 1, eq_ix2 y⟩
  obtain ⟨R, j', rfl⟩ : ∃ (R : Fin 16777216) (j' : Fin 8), i = ix2 R j' := ⟨i 0, i 1, eq_ix2 i⟩
  obtain rfl : j' = j := Fin.ext h1
  rw [Cert.KernelIdeal.Rows.block_eq, result_apply]
  exact congrArg (fun c => out c j') (funext fun k => hX (ix2 r k) (ix2 R k) h0 rfl)

/-- WHAT POINT `t` WRITES BACK is block `t` of the specification's array of the argument. -/
theorem written_back (c : Dev nD) (t : Fin cfg0.N) :
    (dats m 0 c).flushed 1 t
      = ((cfg0.win 1).blk t).view.read (Elt Ideal) (result (m ((c : Thread nD τ).loc main_arg0) : S16777216x8.Idx → EReal)) := by
  obtain ⟨-, -, e2, e3⟩ := block_index t
  rw [flushed1]
  unfold out0_1
  rw [View.canon_unit_zero zero_offsets]
  simp only [View.ld_unit_zero (S := S16384x8) zero_offsets]
  funext y
  show k0_pay1 (F := Ideal) (k0_pay2 (iblk m c 0 t)) (k0_pay3 (iblk m c 0 t)) (k0_pay4 (iblk m c 0 t)) (Scalar.ofBits .f32 0x3F800000#32) y
    = result (m ((c : Thread nD τ).loc main_arg0) : S16777216x8.Idx → EReal) (((cfg0.win 1).blk t).view.emb y)
  refine stored_block (iblk m c 0 t) _ t.val (fun y' i' h0 h1 => loaded_apply m c t y' i' h0 h1) y _ ?_ ?_
  · show win0_1.index t (0 : Fin 2) * 16384 + 1 * (y 0).val = t.val * 16384 + (y 0).val
    rw [e2]; omega
  · show win0_1.index t (1 : Fin 2) * 8 + 1 * (y 1).val = (y 1).val
    rw [e3]; omega

/-- An index of the result array is in point `t`'s block iff each coordinate is in the block's range on its axis. -/
theorem mem_block (t : Fin cfg0.N) (i : S16777216x8.Idx) :
    i ∈ ((cfg0.win 1).blk t).view.set ↔ ∀ a : Fin 2, win0_1.index t a * S16384x8.size a ≤ (i a).val ∧ (i a).val < win0_1.index t a * S16384x8.size a + S16384x8.size a := by
  show i ∈ ((View.whole main_v0).slice (win0_1.rect t)).set ↔ _
  rw [View.set_slice_whole, Rect.mem_set_unit]
  exact Iff.rfl

/-- Every index of the result array is in the block of the point its row's number divided by `16384` names. -/
theorem covered (i : S16777216x8.Idx) : ∃ t : Fin cfg0.N, (cfg0.win 1).flush t = true ∧ i ∈ ((cfg0.win 1).blk t).view.set := by
  have hi0 : (i 0).val < 16777216 := (i 0).isLt
  have hi1 : (i 1).val < 8 := (i 1).isLt
  have hN : cfg0.N = 1024 := N_0
  let t : Fin cfg0.N := ⟨(i 0).val / 16384, by rw [hN]; omega⟩
  obtain ⟨-, -, e2, e3⟩ := block_index t
  have ht : t.val = (i 0).val / 16384 := rfl
  refine ⟨t, flush0_1 t, ?_⟩
  rw [mem_block]
  intro a
  match a with
  | ⟨0, _⟩ => show win0_1.index t (0 : Fin 2) * 16384 ≤ (i 0).val ∧ (i 0).val < win0_1.index t (0 : Fin 2) * 16384 + 16384; rw [e2, ht]; omega
  | ⟨1, _⟩ => show win0_1.index t (1 : Fin 2) * 8 ≤ (i 1).val ∧ (i 1).val < win0_1.index t (1 : Fin 2) * 8 + 8; rw [e3]; omega

/-- THE RESULT ARRAY after the run is the specification's function of the argument array. -/
theorem final_array (c : Dev nD) :
    (dats m 0 c).arrAt 1 cfg0.N = result (m ((c : Thread nD τ).loc main_arg0) : S16777216x8.Idx → EReal) :=
  (dats m 0 c).arrAt_eq_of_cover 1 _ (fun t _ => written_back m c t) covered

/-- The run, read: the result array at the specification's function of the argument, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0) : S16777216x8.Idx → EReal)
      ∧ r.2.mem ((c : Thread nD τ).loc main_arg0) = m ((c : Thread nD τ).loc main_arg0) :=
  (θ_run defs _ _).mono (fun r h c => ⟨(h c).1.trans (final_array m c), (h c).2⟩) (run_blocks m ρ)

end Cert.KernelIdeal.Whole

end
-- ==== Proof.ReferenceRows.lean ====
/-
  The reference program computes the specification, row by row.

  The reference's operations are read one at a time at an index (the generated read-at-an-index lemmas). Column `k` of
  the argument, cut out and reshaped to a vector, holds at `R` the corner value `c_k` of row `R` (`corner0` … `corner7`);
  the sums, products, square root and the added `ε` are elementwise, so the vector of divisors holds at `R` the row's
  divisor (`denom_eq`); broadcast back over the eight columns and divided into the argument it gives the scaled row
  (`scaled_eq`); the two reduces along the second axis are the folds of `min` and `max` over the scaled row
  (`rowMin_eq`, `rowMax_eq`); the two guarded shifts and their sum are elementwise again (`shift_eq`), and the
  last subtraction, of the shift broadcast over the columns, gives the result (`out_eq`, `reference_eq`).
-/
import proofs.«124607_j50946902065846_2_alg».proof.Proof.Gen.ReferenceIdeal.Read
import proofs.«124607_j50946902065846_2_alg».proof.Proof.LibColumns
import proofs.«124607_j50946902065846_2_alg».proof.Proof.RowNormalize

noncomputable section

namespace Cert.ReferenceIdeal.Rows

open Cert.ReferenceIdeal Cert.ReferenceIdeal.Gen Cert.ReferenceIdeal.Read
open Idealize.ShloMosaic Idealize.ShloMosaic.ValueIdx Cert.RowNormalize Cert.Columns

variable (x0 : (⟨S16777216x8, .f32⟩ : BufTy).Contents (Elt Ideal))

/-! ## The indices the layout operations read -/

/-- Entry `R` of column `k`, cut out as `[N, 1]` and reshaped to `[N]`, is the argument's entry `(R, k)`. -/
theorem idx_corner0 (R : Fin 16777216) : idx_main_v0 (idx_main_v1 (ix1 R)) = ix2 R (0 : Fin 8) :=
  funext fun a => Fin.ext (by match a with | ⟨0, _⟩ => exact Nat.div_one _ | ⟨1, _⟩ => rfl)
theorem idx_corner1 (R : Fin 16777216) : idx_main_v2 (idx_main_v3 (ix1 R)) = ix2 R (1 : Fin 8) :=
  funext fun a => Fin.ext (by match a with | ⟨0, _⟩ => exact Nat.div_one _ | ⟨1, _⟩ => rfl)
theorem idx_corner2 (R : Fin 16777216) : idx_main_v4 (idx_main_v5 (ix1 R)) = ix2 R (2 : Fin 8) :=
  funext fun a => Fin.ext (by match a with | ⟨0, _⟩ => exact Nat.div_one _ | ⟨1, _⟩ => rfl)
theorem idx_corner3 (R : Fin 16777216) : idx_main_v6 (idx_main_v7 (ix1 R)) = ix2 R (3 : Fin 8) :=
  funext fun a => Fin.ext (by match a with | ⟨0, _⟩ => exact Nat.div_one _ | ⟨1, _⟩ => rfl)
theorem idx_corner4 (R : Fin 16777216) : idx_main_v8 (idx_main_v9 (ix1 R)) = ix2 R (4 : Fin 8) :=
  funext fun a => Fin.ext (by match a with | ⟨0, _⟩ => exact Nat.div_one _ | ⟨1, _⟩ => rfl)
theorem idx_corner5 (R : Fin 16777216) : idx_main_v10 (idx_main_v11 (ix1 R)) = ix2 R (5 : Fin 8) :=
  funext fun a => Fin.ext (by match a with | ⟨0, _⟩ => exact Nat.div_one _ | ⟨1, _⟩ => rfl)
theorem idx_corner6 (R : Fin 16777216) : idx_main_v12 (idx_main_v13 (ix1 R)) = ix2 R (6 : Fin 8) :=
  funext fun a => Fin.ext (by match a with | ⟨0, _⟩ => exact Nat.div_one _ | ⟨1, _⟩ => rfl)
theorem idx_corner7 (R : Fin 16777216) : idx_main_v14 (idx_main_v15 (ix1 R)) = ix2 R (7 : Fin 8) :=
  funext fun a => Fin.ext (by match a with | ⟨0, _⟩ => exact Nat.div_one _ | ⟨1, _⟩ => rfl)

/-- A vector broadcast to a column and the column over the eight columns reads, at `(R, j)`, the vector's entry `R`. -/
theorem idx_divisor (R : Fin 16777216) (j : Fin 8) : idx_main_v51 (idx_main_v52 (ix2 R j)) = ix1 R :=
  funext fun a => by match a with | ⟨0, _⟩ => rfl
theorem idx_shift (R : Fin 16777216) (j : Fin 8) : idx_main_v67 (idx_main_v68 (ix2 R j)) = ix1 R :=
  funext fun a => by match a with | ⟨0, _⟩ => rfl

/-! ## The eight corner columns -/

theorem corner0 (R : Fin 16777216) : val_main_v1 (F := Ideal) x0 (ix1 R) = row x0 R 0 := by
  rw [val_main_v1_apply, val_main_v0_apply, idx_corner0]; rfl
theorem corner1 (R : Fin 16777216) : val_main_v3 (F := Ideal) x0 (ix1 R) = row x0 R 1 := by
  rw [val_main_v3_apply, val_main_v2_apply, idx_corner1]; rfl
theorem corner2 (R : Fin 16777216) : val_main_v5 (F := Ideal) x0 (ix1 R) = row x0 R 2 := by
  rw [val_main_v5_apply, val_main_v4_apply, idx_corner2]; rfl
theorem corner3 (R : Fin 16777216) : val_main_v7 (F := Ideal) x0 (ix1 R) = row x0 R 3 := by
  rw [val_main_v7_apply, val_main_v6_apply, idx_corner3]; rfl
theorem corner4 (R : Fin 16777216) : val_main_v9 (F := Ideal) x0 (ix1 R) = row x0 R 4 := by
  rw [val_main_v9_apply, val_main_v8_apply, idx_corner4]; rfl
theorem corner5 (R : Fin 16777216) : val_main_v11 (F := Ideal) x0 (ix1 R) = row x0 R 5 := by
  rw [val_main_v11_apply, val_main_v10_apply, idx_corner5]; rfl
theorem corner6 (R : Fin 16777216) : val_main_v13 (F := Ideal) x0 (ix1 R) = row x0 R 6 := by
  rw [val_main_v13_apply, val_main_v12_apply, idx_corner6]; rfl
theorem corner7 (R : Fin 16777216) : val_main_v15 (F := Ideal) x0 (ix1 R) = row x0 R 7 := by
  rw [val_main_v15_apply, val_main_v14_apply, idx_corner7]; rfl

/-! ## The row's divisor, the scaled row, its least and greatest entry, the shift, the result -/

/-- The reduced shape's witness in the form the row lemmas name the reduced axis's coordinate by. -/
theorem reduces_rows : S16777216x8.Reduces [1] S16777216 := by decide

/-- The vector of divisors holds at `R` the divisor of row `R`: its operations are elementwise over the corner columns. -/
theorem denom_eq (R : Fin 16777216) : val_main_v50 (F := Ideal) x0 (ix1 R) = denom (row x0 R) := by
  simp only [val_main_v16_apply, val_main_v17_apply, val_main_v18_apply, val_main_v19_apply, val_main_v20_apply, val_main_v21_apply, val_main_v22_apply, val_main_cst_apply, val_main_v23_apply, val_main_v24_apply, val_main_v25_apply, val_main_v26_apply, val_main_v27_apply, val_main_v28_apply, val_main_v29_apply, val_main_v30_apply, val_main_v31_apply, val_main_cst_0_apply, val_main_v32_apply, val_main_v33_apply, val_main_v34_apply, val_main_v35_apply, val_main_v36_apply, val_main_v37_apply, val_main_v38_apply, val_main_v39_apply, val_main_v40_apply, val_main_cst_1_apply, val_main_v41_apply, val_main_v42_apply, val_main_v43_apply, val_main_v44_apply, val_main_v45_apply, val_main_v46_apply, val_main_v47_apply, val_main_v48_apply, val_main_cst_2_apply, val_main_v49_apply, val_main_v50_apply,
    corner0 x0 R, corner1 x0 R, corner2 x0 R, corner3 x0 R, corner4 x0 R, corner5 x0 R, corner6 x0 R, corner7 x0 R]
  rfl

/-- The quotient of the argument by the broadcast divisors is the scaled row. -/
theorem scaled_eq (R : Fin 16777216) (j : Fin 8) : val_main_v53 (F := Ideal) x0 (ix2 R j) = scaled (row x0 R) j := by
  rw [val_main_v53_apply, val_main_v52_apply, val_main_v51_apply, idx_divisor, denom_eq]; rfl

/-- The reduce with a minimum body along the second axis, from `+∞`, is the scaled row's least entry. -/
theorem rowMin_eq (R : Fin 16777216) : val_main_v54 (F := Ideal) x0 (ix1 R) = rowMin (row x0 R) := by
  unfold val_main_v54 val_main_cst_3
  rw [hostReduce_minimumf_row _ _ _ reduces_rows _ R]
  exact congrArg (fun f => Finset.fold min (Ideal.ofBits .f32 0x7F800000#32) f (Finset.univ : Finset (Fin 8)))
    (funext fun k => scaled_eq x0 R k)

/-- The reduce with a maximum body, from `−∞`, is its greatest entry. -/
theorem rowMax_eq (R : Fin 16777216) : val_main_v55 (F := Ideal) x0 (ix1 R) = rowMax (row x0 R) := by
  unfold val_main_v55 val_main_cst_4
  rw [hostReduce_maximumf_row _ _ _ reduces_rows _ R]
  exact congrArg (fun f => Finset.fold max (Ideal.ofBits .f32 0xFF800000#32) f (Finset.univ : Finset (Fin 8)))
    (funext fun k => scaled_eq x0 R k)

/-- The two guarded shifts, each a comparison, a difference or sum and a choice against a broadcast `0`, added. -/
theorem shift_eq (R : Fin 16777216) : val_main_v66 (F := Ideal) x0 (ix1 R) = shift (row x0 R) := by
  rw [val_main_v66_apply, val_main_v60_apply, val_main_v65_apply, val_main_v57_apply, val_main_v62_apply,
    val_main_v59_apply, val_main_v64_apply, rowMin_eq, rowMax_eq,
    val_main_v56_apply, val_main_cst_5_apply, val_main_v58_apply, val_main_cst_6_apply,
    val_main_v61_apply, val_main_cst_8_apply, val_main_v63_apply, val_main_cst_9_apply,
    val_main_call0_v1_apply, val_main_call0_v0_apply, val_main_cst_7_apply,
    val_main_call1_v1_apply, val_main_call1_v0_apply, val_main_cst_10_apply]
  rfl

/-- Entry `(R, j)` of the reference's result is entry `j` of the result for row `R`. -/
theorem out_eq (R : Fin 16777216) (j : Fin 8) : val_main_v69 (F := Ideal) x0 (ix2 R j) = out (row x0 R) j := by
  rw [val_main_v69_apply, val_main_v68_apply, val_main_v67_apply, idx_shift, shift_eq, scaled_eq]; rfl

/-- THE REFERENCE'S RESULT is the specification's function of the argument. -/
theorem reference_eq : val_main_v69 (F := Ideal) x0 = result x0 := by
  funext i
  obtain ⟨R, j, rfl⟩ : ∃ (R : Fin 16777216) (j : Fin 8), i = ix2 R j := ⟨i 0, i 1, eq_ix2 i⟩
  exact out_eq x0 R j

end Cert.ReferenceIdeal.Rows

end
-- ==== Proof.lean ====
/-
  A row-wise normalization by the gradient's norm, with a guarded shift: the kernel against its reference.

  The argument is an array of `16777216` rows of eight values, the values of a function at the eight corners of a cell.
  Each row `c` is divided by `√(gx² + gy² + gz²) + ε`, where `gx`, `gy`, `gz` are the three central differences of the
  corner values across the cell, and the scaled row is then moved down by `lo − 1` when its least entry `lo` exceeds
  `1` and up by `−(hi + 1)` when its greatest entry `hi` is below `−1` (`Proof/RowNormalize.lean` states the function).
  Every output row depends on its own input row only.

  The kernel cuts the rows into `1024` blocks of `16384`, one per grid point, and computes each block with vector
  operations on columns; the reference computes the same operations on whole columns of the array. At the extended reals
  both perform the same arithmetic in the same order on each row, a change of tiling changes nothing, and the only law
  needed is that the minimum and the maximum of a row do not depend on the order of the fold — so the claim holds for all
  extended-real entries, and the finiteness of the inputs is not used.
  • `Proof/LibColumns.lean`: cutting a column, casting a vector to a column, broadcasting a column, and a row's
    minimum and maximum as a fold, each read at an index;
  • `Proof/KernelRows.lean`: the block the body stores is the function of the block it loads, row by row;
  • `Proof/KernelArray.lean`: point `t` loads and writes back rows `16384 t …`, the blocks cover the array, so the
    kernel's result array is the function of its argument;
  • `Proof/ReferenceRows.lean`: the reference's result is the same function of its argument.
  The kernel's idealization rewrites nothing (the idealized kernel is the kernel's own text read at the extended reals), so
  there is nothing to preserve; the three programs run to the end without fault and leave their argument unchanged by the
  generated frame certificates and the reference's generated run.
-/
import proofs.«124607_j50946902065846_2_alg».proof.Defs
import proofs.«124607_j50946902065846_2_alg».proof.Proof.Gen.Kernel
import proofs.«124607_j50946902065846_2_alg».proof.Proof.Gen.Kernel.Skeleton
import proofs.«124607_j50946902065846_2_alg».proof.Proof.Gen.Kernel.Launch
import proofs.«124607_j50946902065846_2_alg».proof.Proof.Gen.Kernel.Points
import proofs.«124607_j50946902065846_2_alg».proof.Proof.Gen.Kernel.Frame
import proofs.«124607_j50946902065846_2_alg».proof.Proof.Gen.KernelIdeal
import proofs.«124607_j50946902065846_2_alg».proof.Proof.Gen.KernelIdeal.Skeleton
import proofs.«124607_j50946902065846_2_alg».proof.Proof.Gen.KernelIdeal.Launch
import proofs.«124607_j50946902065846_2_alg».proof.Proof.Gen.KernelIdeal.Points
import proofs.«124607_j50946902065846_2_alg».proof.Proof.Gen.KernelIdeal.Frame
import proofs.«124607_j50946902065846_2_alg».proof.Proof.Gen.ReferenceIdeal
import proofs.«124607_j50946902065846_2_alg».proof.Proof.Gen.Pre_finite_inputs
import proofs.«124607_j50946902065846_2_alg».proof.Proof.Gen.KernelIdeal.Value
import proofs.«124607_j50946902065846_2_alg».proof.Proof.Gen.ReferenceIdeal.Run
import proofs.«124607_j50946902065846_2_alg».proof.Proof.Gen.ReferenceIdeal.Read
import proofs.«124607_j50946902065846_2_alg».proof.Proof.KernelArray
import proofs.«124607_j50946902065846_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to the end without fault and leaves its argument unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing is to be preserved. -/
theorem preserves : Cert.preserves_Kernel_KernelIdeal := trivial

/-- From memories that agree on the argument, the kernel's result array ends at the row-wise function of its argument
    (`Cert.KernelIdeal.Whole.run`) and the reference's at the same function of its own (`Cert.ReferenceIdeal.Rows.reference_eq`
    over its generated run): equal arrays. -/
theorem algebraic : Cert.algebraic_KernelIdeal_ReferenceIdeal := by
  intro m ρ m' ρ' _ hagree
  refine ⟨fun c => Cert.RowNormalize.result
      (m ((c.tc : Thread Cert.KernelIdeal.nD Cert.KernelIdeal.τ).loc Cert.KernelIdeal.main_arg0) : Cert.KernelIdeal.S16777216x8.Idx → EReal),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.ReferenceIdeal.Rows.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
